-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x4096 : S_.BroadcastsInDim S1x4096 (![] : Fin 0 → Fin S1x4096.rank)
  reducesTo_S1x4096_S_d0_1 : S1x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024 .f32) (main_arg12 : FVec F S1x4096 .f32) (main_arg13 : FVec F S4096 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x4096 .f32) (main_arg1 : FVec F S1024x4096 .f32) (main_arg2 : FVec F S4096x1024 .f32) (main_arg3 : FVec F S1x4096 .f32) (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S128x4096 : Shape := ⟨2, ![128, 4096]⟩
abbrev S128x1024 : Shape := ⟨2, ![128, 1024]⟩

abbrev nBuf : Space → Nat
  | .hbm => 28
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S1024x4096, .bf16⟩
  | .hbm, ⟨17, _⟩ => ⟨S4096x1024, .f32⟩
  | .hbm, ⟨18, _⟩ => ⟨S4096x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x1024, .f32⟩
  | .hbm, ⟨24, _⟩ => ⟨S1x1024, .f32⟩
  | .hbm, ⟨25, _⟩ => ⟨S1x4096, .f32⟩
  | .hbm, ⟨26, _⟩ => ⟨S8192x4096, .f32⟩
  | .hbm, ⟨27, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S1024x4096, .bf16⟩
  | .local _ .vmem, ⟨3, _⟩ => ⟨S4096x1024, .bf16⟩
  | .local _ .vmem, ⟨4, _⟩ => ⟨S1x4096, .f32⟩
  | .local _ .vmem, ⟨5, _⟩ => ⟨S1x1024, .f32⟩
  | .local _ .vmem, ⟨6, _⟩ => ⟨S1x4096, .f32⟩
  | .local _ .vmem, ⟨7, _⟩ => ⟨S1024x4096, .bf16⟩
  | .local _ .vmem, ⟨8, _⟩ => ⟨S4096x1024, .bf16⟩
  | .local _ .vmem, ⟨9, _⟩ => ⟨S1x4096, .f32⟩
  | .local _ .vmem, ⟨10, _⟩ => ⟨S1x1024, .f32⟩
  | .local _ .vmem, ⟨11, _⟩ => ⟨S1x4096, .f32⟩
  | .local _ .vmem, ⟨12, _⟩ => ⟨S1x4096, .f32⟩
  | .local _ .vmem, ⟨13, _⟩ => ⟨S128x4096, .f32⟩
  | .local _ .vmem, ⟨14, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  broadcasts_S1x4096_S128x4096 : S1x4096.Broadcasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S1x4096_S1x4096 : S1x4096.ShapeCasts S1x4096
  shapeCasts_S8192x4096_S4x2048x4096 : S8192x4096.ShapeCasts S4x2048x4096
  dot_S128x4096_S1024x4096_S128x1024_1_1_0_0_n_n_wf : DotDims.WF S128x4096 S1024x4096 S128x1024 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1024.size a ≤ S4096x1024.size a
  hwx0_7 : ∀ i : grid0.Coords, EltTy.bits .bf16 = 32 ∨ (Rect.block (s := S4096x1024) S4096x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x4096.size a ≤ S8192x4096.size a
  hwx0_12 : ∀ i : grid0.Coords, EltTy.bits .f32 = 32 ∨ (Rect.block (s := S8192x4096) S128x4096.size (cc0_transform_12 i) (hinb0_12 i)).WholeWords (EltTy.packing .f32)

variable [Facts₀]

def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S4096x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S128x4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S4096x1024, .f32⟩
  | .hbm, ⟨17, _⟩ => ⟨S8192x4096, .f32⟩
  | .hbm, ⟨18, _⟩ => ⟨S8192x4096, .f32⟩
  | .hbm, ⟨19, _⟩ => ⟨S4096x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S4096x1024, .f32⟩
  | .hbm, ⟨30, _⟩ => ⟨S8192x4096, .f32⟩
  | .hbm, ⟨31, _⟩ => ⟨S8192x4096, .f32⟩
  | .hbm, ⟨32, _⟩ => ⟨S4096x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S1x4096_S8192x4096_0_1 : S1x4096.BroadcastsInDim S8192x4096 (![0, 1] : Fin 2 → Fin S8192x4096.rank)
  transposes_S1024x4096_S4096x1024_1_0 : S1024x4096.Transposes [1, 0] S4096x1024
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  shapeCasts_S8192x4096_S4x2048x4096 : S8192x4096.ShapeCasts S4x2048x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The mathematics both programs compute, stated once and of no program.

  A "little-bit" linear layer is a sum of two low-rank branches plus a bias. One branch sends a row `x` of
  length `K` to the row of length `O` whose entry `o` is

      ( Σ_s ( ( Σ_k (x k * v k) * W s k ) * c s ) * U o s ) * u o

  with `W : S × K` and `U : O × S` the two factors (here: the signs of the weights, but nothing below looks
  inside them), `v`, `c`, `u` the per-channel scales before, between and after the two products. The products
  and sums are those of the extended reals, grouped exactly as written: nothing is distributed or cancelled,
  so no finiteness is ever used.
-/
import Idealize.ShloMosaic.PureOps.Ideal
import Idealize.ShloMosaic.Lib.ValueIdx

noncomputable section

namespace Cert.LowRank

open Idealize.ShloMosaic Idealize.ShloMosaic.ValueIdx

/-- A matrix shape. -/
abbrev Mat (a b : ℕ) : Shape := ⟨2, ![a, b]⟩
/-- A vector shape. -/
abbrev Vec1 (a : ℕ) : Shape := ⟨1, ![a]⟩

/-- Entry `o` of one low-rank branch applied to the row `x`: scale by `v`, contract against `W` over `k`,
    scale by `c`, contract against `U` over `s`, scale by `u`. -/
def branch {K S O : ℕ} (x v : Fin K → EReal) (W : Fin S → Fin K → EReal) (c : Fin S → EReal)
    (U : Fin O → Fin S → EReal) (u : Fin O → EReal) (o : Fin O) : EReal :=
  (∑ s : Fin S, ((∑ k : Fin K, (x k * v k) * W s k) * c s) * U o s) * u o

/-- Entry `o` of the layer's output row: the first branch plus the second, plus the bias. -/
def rowOut {K S O : ℕ} (x : Fin K → EReal)
    (v : Fin K → EReal) (W : Fin S → Fin K → EReal) (c : Fin S → EReal) (U : Fin O → Fin S → EReal) (u : Fin O → EReal)
    (v' : Fin K → EReal) (W' : Fin S → Fin K → EReal) (c' : Fin S → EReal) (U' : Fin O → Fin S → EReal) (u' : Fin O → EReal)
    (b : Fin O → EReal) (o : Fin O) : EReal :=
  (branch x v W c U u o + branch x v' W' c' U' u' o) + b o

/-- The whole output as one function of the arrays: row `r` of the result is `rowOut` of row `r` of the input,
    the scales being one-row matrices and the bias a vector. -/
def G (X : (Mat 8192 4096).Idx → EReal)
    (W : (Mat 1024 4096).Idx → EReal) (U : (Mat 4096 1024).Idx → EReal)
    (v : (Mat 1 4096).Idx → EReal) (c : (Mat 1 1024).Idx → EReal) (u : (Mat 1 4096).Idx → EReal)
    (W' : (Mat 1024 4096).Idx → EReal) (U' : (Mat 4096 1024).Idx → EReal)
    (v' : (Mat 1 4096).Idx → EReal) (c' : (Mat 1 1024).Idx → EReal) (u' : (Mat 1 4096).Idx → EReal)
    (b : (Vec1 4096).Idx → EReal) : (Mat 8192 4096).Idx → EReal := fun i =>
  rowOut (fun k : Fin 4096 => X (ix2 (⟨(i 0).val, idx2_lt0 i⟩ : Fin 8192) k))
    (fun k : Fin 4096 => v (ix2 (0 : Fin 1) k)) (fun (s : Fin 1024) (k : Fin 4096) => W (ix2 s k)) (fun s : Fin 1024 => c (ix2 (0 : Fin 1) s))
    (fun (o : Fin 4096) (s : Fin 1024) => U (ix2 o s)) (fun o : Fin 4096 => u (ix2 (0 : Fin 1) o))
    (fun k : Fin 4096 => v' (ix2 (0 : Fin 1) k)) (fun (s : Fin 1024) (k : Fin 4096) => W' (ix2 s k)) (fun s : Fin 1024 => c' (ix2 (0 : Fin 1) s))
    (fun (o : Fin 4096) (s : Fin 1024) => U' (ix2 o s)) (fun o : Fin 4096 => u' (ix2 (0 : Fin 1) o))
    (fun o : Fin 4096 => b (ix1 o)) (⟨(i 1).val, idx2_lt1 i⟩ : Fin 4096)

/-- `G` at an index written by its coordinates. -/
theorem G_ix2 (X : (Mat 8192 4096).Idx → EReal)
    (W : (Mat 1024 4096).Idx → EReal) (U : (Mat 4096 1024).Idx → EReal)
    (v : (Mat 1 4096).Idx → EReal) (c : (Mat 1 1024).Idx → EReal) (u : (Mat 1 4096).Idx → EReal)
    (W' : (Mat 1024 4096).Idx → EReal) (U' : (Mat 4096 1024).Idx → EReal)
    (v' : (Mat 1 4096).Idx → EReal) (c' : (Mat 1 1024).Idx → EReal) (u' : (Mat 1 4096).Idx → EReal)
    (b : (Vec1 4096).Idx → EReal) (r : Fin 8192) (o : Fin 4096) :
    G X W U v c u W' U' v' c' u' b (ix2 r o) =
      rowOut (fun k : Fin 4096 => X (ix2 r k))
        (fun k : Fin 4096 => v (ix2 (0 : Fin 1) k)) (fun (s : Fin 1024) (k : Fin 4096) => W (ix2 s k)) (fun s : Fin 1024 => c (ix2 (0 : Fin 1) s))
        (fun (o : Fin 4096) (s : Fin 1024) => U (ix2 o s)) (fun o : Fin 4096 => u (ix2 (0 : Fin 1) o))
        (fun k : Fin 4096 => v' (ix2 (0 : Fin 1) k)) (fun (s : Fin 1024) (k : Fin 4096) => W' (ix2 s k)) (fun s : Fin 1024 => c' (ix2 (0 : Fin 1) s))
        (fun (o : Fin 4096) (s : Fin 1024) => U' (ix2 o s)) (fun o : Fin 4096 => u' (ix2 (0 : Fin 1) o))
        (fun o : Fin 4096 => b (ix1 o)) o := rfl

/-- THE LAYER as one function of the fourteen argument arrays: the input flattened to 8192 rows, `G` of it with the
    signs of the four weight matrices and each pair of one-row scale vectors folded into its product, and the result
    laid out in the input's shape again. -/
def layer (x : (⟨3, ![4, 2048, 4096]⟩ : Shape).Idx → EReal)
    (V : (Mat 1024 4096).Idx → EReal) (U : (Mat 4096 1024).Idx → EReal)
    (v2 : (Mat 1 4096).Idx → EReal) (v1 u2 : (Mat 1 1024).Idx → EReal) (u1 : (Mat 1 4096).Idx → EReal)
    (V' : (Mat 1024 4096).Idx → EReal) (U' : (Mat 4096 1024).Idx → EReal)
    (v2' : (Mat 1 4096).Idx → EReal) (v1' u2' : (Mat 1 1024).Idx → EReal) (u1' : (Mat 1 4096).Idx → EReal)
    (b : (Vec1 4096).Idx → EReal) : (⟨3, ![4, 2048, 4096]⟩ : Shape).Idx → EReal :=
  shapeCast ⟨3, ![4, 2048, 4096]⟩
    (G (shapeCast (Mat 8192 4096) x (by decide))
      (Host.sign (F := Ideal) (φ := .f32) V) (Host.sign (F := Ideal) (φ := .f32) U) v2 (mulf (F := Ideal) (φ := .f32) v1 u2) u1
      (Host.sign (F := Ideal) (φ := .f32) V') (Host.sign (F := Ideal) (φ := .f32) U') v2' (mulf (F := Ideal) (φ := .f32) v1' u2') u1' b)
    (by decide)

end Cert.LowRank

end
-- ==== Proof.RefIsSpec.lean ====
/-
  The reference, read at an entry, is the specification.

  Its flat result (before the closing reshape) is built from two chains of the same operations: a row of the
  flattened input scaled lane by lane, contracted against the TRANSPOSE of the sign matrix `W` — so the
  product runs over `W s k`, row `s` of `W` itself —, scaled by the product of two one-row vectors, contracted
  against the transpose of `U`, scaled again; the two chains are added and the bias row, a vector broadcast
  twice, is added last. Read at `(r, o)` that is `LowRank.rowOut` of row `r`. The flattened input, the two
  sign matrices and the product of the two scale vectors are carried as whole arrays and never opened.
-/
import proofs.«117725_j15702400434326_2_alg».proof.Proof.Gen.ReferenceIdeal.Read
import proofs.«117725_j15702400434326_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.LowRank

/-- The first contraction at `(r, s)`: over the lanes `k` of row `r`, the scaled input times row `s` of the sign matrix
    (the transpose the reference contracts against read back at its operand). -/
theorem first_contraction (x0 : FVec Ideal S4x2048x4096 .f32) (x1 : FVec Ideal S1024x4096 .f32) (x3 : FVec Ideal S1x4096 .f32)
    (r : Fin 8192) (s : Fin 1024) :
    val_main_v6 (F := Ideal) x0 x1 x3 (ix2 r s)
      = ∑ k : Fin 4096, (val_main_v0 (F := Ideal) x0 (ix2 r k) * x3 (ix2 (0 : Fin 1) k)) * val_main_v1 (F := Ideal) x1 (ix2 s k) := by
  rw [val_main_v6_apply]
  refine Finset.sum_congr rfl fun k _ => ?_
  rw [val_main_v4_apply, val_main_v3_apply, val_main_v5_apply]
  have e1 : lidx_main_v6 (ix2 r s) k = ix2 r k :=
    funext fun a => Fin.ext (by match a with | ⟨0, _⟩ => rfl | ⟨1, _⟩ => rfl)
  have e2 : idx_main_v3 (ix2 r k) = ix2 (0 : Fin 1) k :=
    funext fun a => Fin.ext (by match a with | ⟨0, _⟩ => rfl | ⟨1, _⟩ => rfl)
  have e3 : idx_main_v5 (ridx_main_v6 (ix2 r s) k) = ix2 s k :=
    funext fun a => Fin.ext (by match a with | ⟨0, _⟩ => rfl | ⟨1, _⟩ => rfl)
  rw [e1, e2, e3]
  rfl

/-- One whole branch at `(r, o)`. -/
theorem branch_at (x0 : FVec Ideal S4x2048x4096 .f32) (x1 : FVec Ideal S1024x4096 .f32) (x2 : FVec Ideal S4096x1024 .f32)
    (x3 : FVec Ideal S1x4096 .f32) (x4 x5 : FVec Ideal S1x1024 .f32) (x6 : FVec Ideal S1x4096 .f32)
    (r : Fin 8192) (o : Fin 4096) :
    val_main_v13 (F := Ideal) x0 x1 x2 x3 x4 x5 x6 (ix2 r o)
      = branch (fun k : Fin 4096 => val_main_v0 (F := Ideal) x0 (ix2 r k)) (fun k : Fin 4096 => x3 (ix2 (0 : Fin 1) k))
          (fun (s : Fin 1024) (k : Fin 4096) => val_main_v1 (F := Ideal) x1 (ix2 s k))
          (fun s : Fin 1024 => val_main_v7 (F := Ideal) x4 x5 (ix2 (0 : Fin 1) s))
          (fun (o : Fin 4096) (s : Fin 1024) => val_main_v2 (F := Ideal) x2 (ix2 o s))
          (fun o : Fin 4096 => x6 (ix2 (0 : Fin 1) o)) o := by
  rw [val_main_v13_apply, val_main_v11_apply, val_main_v12_apply]
  have e12 : idx_main_v12 (ix2 r o) = ix2 (0 : Fin 1) o :=
    funext fun a => Fin.ext (by match a with | ⟨0, _⟩ => rfl | ⟨1, _⟩ => rfl)
  rw [e12]
  unfold branch
  show (∑ s : Fin 1024, _) * _ = (∑ s : Fin 1024, _) * _
  refine congrArg (· * x6 (ix2 (0 : Fin 1) o)) (Finset.sum_congr rfl fun s _ => ?_)
  have el : lidx_main_v11 (ix2 r o) s = ix2 r s :=
    funext fun a => Fin.ext (by match a with | ⟨0, _⟩ => rfl | ⟨1, _⟩ => rfl)
  have er : idx_main_v10 (ridx_main_v11 (ix2 r o) s) = ix2 o s :=
    funext fun a => Fin.ext (by match a with | ⟨0, _⟩ => rfl | ⟨1, _⟩ => rfl)
  have e8 : idx_main_v8 (ix2 r s) = ix2 (0 : Fin 1) s :=
    funext fun a => Fin.ext (by match a with | ⟨0, _⟩ => rfl | ⟨1, _⟩ => rfl)
  rw [el, val_main_v9_apply, first_contraction, val_main_v8_apply, val_main_v10_apply, er, e8]
  rfl

/-- The second branch is the first chain of operations again, at the other weights and scales. -/
theorem second_branch (x0 : FVec Ideal S4x2048x4096 .f32) (x7 : FVec Ideal S1024x4096 .f32) (x8 : FVec Ideal S4096x1024 .f32)
    (x9 : FVec Ideal S1x4096 .f32) (x10 x11 : FVec Ideal S1x1024 .f32) (x12 : FVec Ideal S1x4096 .f32) :
    val_main_v26 (F := Ideal) x0 x7 x8 x9 x10 x11 x12 = val_main_v13 (F := Ideal) x0 x7 x8 x9 x10 x11 x12 := rfl

/-- THE REFERENCE IS THE SPECIFICATION: its flat result is `G` of the flattened input, the sign matrices, the scales and
    the bias vector. -/
theorem flat_eq (x0 : FVec Ideal S4x2048x4096 .f32) (x1 : FVec Ideal S1024x4096 .f32) (x2 : FVec Ideal S4096x1024 .f32)
    (x3 : FVec Ideal S1x4096 .f32) (x4 x5 : FVec Ideal S1x1024 .f32) (x6 : FVec Ideal S1x4096 .f32)
    (x7 : FVec Ideal S1024x4096 .f32) (x8 : FVec Ideal S4096x1024 .f32)
    (x9 : FVec Ideal S1x4096 .f32) (x10 x11 : FVec Ideal S1x1024 .f32) (x12 : FVec Ideal S1x4096 .f32) (x13 : FVec Ideal S4096 .f32) :
    val_main_v30 (F := Ideal) x0 x1 x2 x3 x4 x5 x6 x7 x8 x9 x10 x11 x12 x13
      = G (shapeCast S8192x4096 x0 shapeCasts_S4x2048x4096_S8192x4096)
          (Host.sign x1) (Host.sign x2) x3 (mulf x4 x5) x6
          (Host.sign x7) (Host.sign x8) x9 (mulf x10 x11) x12 x13 := by
  funext i
  obtain ⟨r, o, rfl⟩ : ∃ (r : Fin 8192) (o : Fin 4096), i = ix2 r o := ⟨i 0, i 1, eq_ix2 i⟩
  rw [G_ix2, val_main_v30_apply, val_main_v27_apply, second_branch, branch_at, branch_at, val_main_v29_apply, val_main_v28_apply]
  have eb : idx_main_v28 (idx_main_v29 (ix2 r o)) = ix1 o :=
    funext fun a => Fin.ext (by match a with | ⟨0, _⟩ => rfl)
  rw [eb]
  rfl

/-- THE REFERENCE'S RESULT is the layer: its flat result laid out in the input's shape. -/
theorem ref_layer (x0 : FVec Ideal S4x2048x4096 .f32) (x1 : FVec Ideal S1024x4096 .f32) (x2 : FVec Ideal S4096x1024 .f32)
    (x3 : FVec Ideal S1x4096 .f32) (x4 x5 : FVec Ideal S1x1024 .f32) (x6 : FVec Ideal S1x4096 .f32)
    (x7 : FVec Ideal S1024x4096 .f32) (x8 : FVec Ideal S4096x1024 .f32)
    (x9 : FVec Ideal S1x4096 .f32) (x10 x11 : FVec Ideal S1x1024 .f32) (x12 : FVec Ideal S1x4096 .f32) (x13 : FVec Ideal S4096 .f32) :
    val_main_v31 (F := Ideal) x0 x1 x2 x3 x4 x5 x6 x7 x8 x9 x10 x11 x12 x13
      = layer x0 x1 x2 x3 x4 x5 x6 x7 x8 x9 x10 x11 x12 x13 := by
  unfold val_main_v31 layer
  rw [flat_eq]

end Cert.ReferenceIdeal.RefValue

end
-- ==== Proof.LibLaneProduct.lean ====
/-
  A matrix product whose two operands are BOTH contracted along their lanes.

  For `A : [a, k]` and `B : [n, k]` the product with dimension numbers "contract axis 1 of the left operand
  with axis 1 of the right, rows of the left first, rows of the right second" is the matrix `A · Bᵀ` : [a, n],
  entry `(p, c)` being Σ_q A(p, q) · B(c, q) — row `c` of `B` itself, no transpose taken. Here that is read at
  an entry written by its coordinates, at the ideal values (where a product into a zero accumulator is the
  plain sum and the operands' float formats do not matter), for a kernel's product into the zero splat and
  for the host's product, generic in the three extents.
-/
import Idealize.ShloMosaic.PureOps.Ideal.Laws
import Idealize.ShloMosaic.Lib.ValueIdx

noncomputable section

namespace Cert.LibLaneProduct

open Idealize.ShloMosaic Idealize.ShloMosaic.ValueIdx

variable {a k n : ℕ}

/-- The dimension numbers: contract the lanes of both operands; the result's rows are the left operand's rows, its
    lanes the right operand's rows. (A printed record with these six lists is this one, by unfolding.) -/
def lanes (wf : DotDims.WF (⟨2, ![a, k]⟩ : Shape) ⟨2, ![n, k]⟩ ⟨2, ![a, n]⟩ [1] [1] [0] [0] [] []) :
    DotDims (⟨2, ![a, k]⟩ : Shape) ⟨2, ![n, k]⟩ ⟨2, ![a, n]⟩ where
  lhsContracting := [1]
  rhsContracting := [1]
  lhsNonContracting := [0]
  rhsNonContracting := [0]
  lhsBatch := []
  rhsBatch := []
  wf := wf

variable (wf : DotDims.WF (⟨2, ![a, k]⟩ : Shape) ⟨2, ![n, k]⟩ ⟨2, ![a, n]⟩ [1] [1] [0] [0] [] [])

/-- The left operand's row is the result's row. -/
theorem lhs_row (i : (⟨2, ![a, n]⟩ : Shape).Idx) (q : (lanes wf).contr.Idx) :
    ((lanes wf).lhsIdx i q 0).val = (i 0).val := by
  unfold DotDims.lhsIdx
  rw [dif_neg (show ¬(0 : Fin (⟨2, ![a, k]⟩ : Shape).rank) ∈ (lanes wf).lhsBatch from List.not_mem_nil),
    dif_pos (show (0 : Fin (⟨2, ![a, k]⟩ : Shape).rank) ∈ (lanes wf).lhsNonContracting from List.mem_singleton.mpr rfl)]
  rfl

/-- The left operand's lane is the contraction position. -/
theorem lhs_lane (i : (⟨2, ![a, n]⟩ : Shape).Idx) (q : (lanes wf).contr.Idx) :
    ((lanes wf).lhsIdx i q 1).val = (q ⟨0, Nat.one_pos⟩).val :=
  (lanes wf).lhsIdx_val_of_single rfl i q

/-- The right operand's row is the result's lane. -/
theorem rhs_row (i : (⟨2, ![a, n]⟩ : Shape).Idx) (q : (lanes wf).contr.Idx) :
    ((lanes wf).rhsIdx i q 0).val = (i 1).val := by
  unfold DotDims.rhsIdx
  rw [dif_neg (show ¬(0 : Fin (⟨2, ![n, k]⟩ : Shape).rank) ∈ (lanes wf).rhsBatch from List.not_mem_nil),
    dif_pos (show (0 : Fin (⟨2, ![n, k]⟩ : Shape).rank) ∈ (lanes wf).rhsNonContracting from List.mem_singleton.mpr rfl)]
  rfl

/-- The right operand's lane is the contraction position. -/
theorem rhs_lane (i : (⟨2, ![a, n]⟩ : Shape).Idx) (q : (lanes wf).contr.Idx) :
    ((lanes wf).rhsIdx i q 1).val = (q ⟨0, Nat.one_pos⟩).val :=
  (lanes wf).rhsIdx_val_of_single rfl i q

/-- The sum over the contraction index of the operands at the product's index maps is the sum over the lanes. -/
theorem sum_lanes (A : (⟨2, ![a, k]⟩ : Shape).Idx → EReal) (B : (⟨2, ![n, k]⟩ : Shape).Idx → EReal) (p : Fin a) (c : Fin n) :
    (∑ q : (lanes wf).contr.Idx, A ((lanes wf).lhsIdx (ix2 p c) q) * B ((lanes wf).rhsIdx (ix2 p c) q))
      = ∑ q : Fin k, A (ix2 p q) * B (ix2 c q) := by
  rw [← Equiv.sum_comp (contrEquiv1 (lanes wf) k rfl rfl).symm]
  refine Finset.sum_congr rfl fun q _ => ?_
  have hq := contrEquiv1_symm_val (lanes wf) k rfl rfl q
  have el : (lanes wf).lhsIdx (ix2 p c) ((contrEquiv1 (lanes wf) k rfl rfl).symm q) = ix2 p q := funext fun ax => Fin.ext (by
    match ax with
    | ⟨0, _⟩ => exact lhs_row wf _ _
    | ⟨1, _⟩ => exact (lhs_lane wf _ _).trans hq)
  have er : (lanes wf).rhsIdx (ix2 p c) ((contrEquiv1 (lanes wf) k rfl rfl).symm q) = ix2 c q := funext fun ax => Fin.ext (by
    match ax with
    | ⟨0, _⟩ => exact rhs_row wf _ _
    | ⟨1, _⟩ => exact (rhs_lane wf _ _).trans hq)
  rw [el, er]

/-- A KERNEL'S PRODUCT into the zero splat, at `(p, c)`: the sum over the lanes `q` of `A(p, q) · B(c, q)`. -/
theorem matmul_zero_apply {φ₁ φ₂ : FTy} (prec : Option ContractPrecision)
    (A : FVec Ideal (⟨2, ![a, k]⟩ : Shape) φ₁) (B : FVec Ideal (⟨2, ![n, k]⟩ : Shape) φ₂) (p : Fin a) (c : Fin n) :
    FloatOps.matmul (lanes wf) prec A B (constant (F := Ideal) ⟨2, ![a, n]⟩ .f32 0x00000000#32) (ix2 p c)
      = ∑ q : Fin k, A (ix2 p q) * B (ix2 c q) :=
  (Ideal.matmul_constant_zero_apply (lanes wf) prec A B (ix2 p c)).trans (sum_lanes wf A B p c)

/-- THE HOST'S PRODUCT with the same dimension numbers, at `(p, c)`: the same sum, whatever the schedule. -/
theorem dotGeneral_apply {φ₁ φ₂ : FTy} (prec : Option ContractPrecision) (sched : HostSchedule)
    (A : FVec Ideal (⟨2, ![a, k]⟩ : Shape) φ₁) (B : FVec Ideal (⟨2, ![n, k]⟩ : Shape) φ₂) (p : Fin a) (c : Fin n) :
    FloatOps.dotGeneral (lanes wf) prec sched A B (ix2 p c) = ∑ q : Fin k, A (ix2 p q) * B (ix2 c q) :=
  (Ideal.dotGeneral_apply (lanes wf) prec sched A B (ix2 p c)).trans (sum_lanes wf A B p c)

end Cert.LibLaneProduct

end
-- ==== Proof.KernelPayload.lean ====
/-
  What the kernel's body stores, read at one entry of the block.

  The body works on 128 rows of the flattened input at a time with every weight and scale resident. It scales
  the rows lane by lane, multiplies them against the sign matrix with BOTH operands contracted along their
  lanes — so entry `(p, s)` of the product is Σ_k a(p,k)·W(s,k), row `s` of `W` itself, no transpose —, scales
  by the folded one-row vector, multiplies the same way against the second sign matrix, scales again; does
  all that a second time with the other weights; adds the two and adds the bias row. At the ideal values a
  change of float format is the identity and a product into a zero accumulator is the plain sum, so the stored
  value at `(p, o)` is `LowRank.rowOut` of row `p` of the block.
-/
import proofs.«117725_j15702400434326_2_alg».proof.Proof.Gen.KernelIdeal.Skeleton
import proofs.«117725_j15702400434326_2_alg».proof.Proof.Spec
import proofs.«117725_j15702400434326_2_alg».proof.Proof.LibLaneProduct
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.LowRank

/-! ## The two products, both operands contracted along their lanes -/

/-- The first product into the zero accumulator at `(p, s)`: the sum over the 4096 lanes of row `p` of the left operand
    times row `s` of the right. -/
theorem first_product (A : FVec Ideal S128x4096 .bf16) (B : FVec Ideal S1024x4096 .bf16) (p : Fin 128) (s : Fin 1024) :
    matmul dot_S128x4096_S1024x4096_S128x1024_1_1_0_0_n_n none A B (constant (F := Ideal) S128x1024 .f32 0x00000000#32) (ix2 p s)
      = ∑ k : Fin 4096, A (ix2 p k) * B (ix2 s k) :=
  Cert.LibLaneProduct.matmul_zero_apply dot_S128x4096_S1024x4096_S128x1024_1_1_0_0_n_n_wf none A B p s

/-- The second product into the zero accumulator at `(p, o)`: the sum over the 1024 lanes of row `p` of the left operand
    times row `o` of the right. -/
theorem second_product (A : FVec Ideal S128x1024 .bf16) (B : FVec Ideal S4096x1024 .bf16) (p : Fin 128) (o : Fin 4096) :
    matmul dot_S128x1024_S4096x1024_S128x4096_1_1_0_0_n_n none A B (constant (F := Ideal) S128x4096 .f32 0x00000000#32) (ix2 p o)
      = ∑ s : Fin 1024, A (ix2 p s) * B (ix2 o s) :=
  Cert.LibLaneProduct.matmul_zero_apply dot_S128x1024_S4096x1024_S128x4096_1_1_0_0_n_n_wf none A B p o

/-! ## The pieces of the body -/

/-- The hidden activations: the first product scaled by the folded one-row vector, at `(p, s)`. -/
theorem hidden (x : FVec Ideal S128x4096 .f32) (v : FVec Ideal S1x4096 .f32) (W : FVec Ideal S1024x4096 .bf16) (c : FVec Ideal S1x1024 .f32)
    (h1 : S128x4096.ShapeCasts S128x4096) (h2 : S1x4096.Broadcasts S128x4096) (h3 : FTy.bits .bf16 < FTy.bits .f32)
    (h4 : S1024x4096.ShapeCasts S1024x4096) (h5 : S1x1024.ShapeCasts S1x1024) (h6 : S1x1024.Broadcasts S128x1024)
    (p : Fin 128) (s : Fin 1024) :
    (truncf .bf16 (mulf (matmul dot_S128x4096_S1024x4096_S128x1024_1_1_0_0_n_n none
        (truncf .bf16 (mulf (shapeCast S128x4096 x h1) (broadcastTo S128x4096 v h2)) h3 : FVec Ideal S128x4096 .bf16)
        (shapeCast S1024x4096 W h4) (constant (F := Ideal) S128x1024 .f32 0x00000000#32))
        (broadcastTo S128x1024 (shapeCast S1x1024 c h5) h6)) h3 : FVec Ideal S128x1024 .bf16) (ix2 p s)
      = (∑ k : Fin 4096, (x (ix2 p k) * v (ix2 (0 : Fin 1) k)) * W (ix2 s k)) * c (ix2 (0 : Fin 1) s) := by
  rw [truncf_apply, mulf_apply, first_product, shapeCast_self, shapeCast_self, broadcastTo_1b_ab_apply, shapeCast_self]
  refine congrArg (· * c (ix2 (0 : Fin 1) s)) (Finset.sum_congr rfl fun k _ => ?_)
  rw [truncf_apply, mulf_apply, broadcastTo_1b_ab_apply]

/-- The third payload is the second branch's hidden activations. -/
theorem pay3_at (x : FVec Ideal S128x4096 .f32) (v : FVec Ideal S1x4096 .f32) (W : FVec Ideal S1024x4096 .bf16) (c : FVec Ideal S1x1024 .f32)
    (p : Fin 128) (s : Fin 1024) :
    k0_pay3 (F := Ideal) x v W c (ix2 p s)
      = (∑ k : Fin 4096, (x (ix2 p k) * v (ix2 (0 : Fin 1) k)) * W (ix2 s k)) * c (ix2 (0 : Fin 1) s) := by
  unfold k0_pay3
  exact hidden x v W c _ _ _ _ _ _ p s

/-- The second payload is the whole first branch at `(p, o)`. -/
theorem pay2_at (x : FVec Ideal S128x4096 .f32) (v : FVec Ideal S1x4096 .f32) (W : FVec Ideal S1024x4096 .bf16) (c : FVec Ideal S1x1024 .f32)
    (U : FVec Ideal S4096x1024 .bf16) (u : FVec Ideal S1x4096 .f32) (p : Fin 128) (o : Fin 4096) :
    k0_pay2 (F := Ideal) x v W c U u (ix2 p o)
      = branch (fun k : Fin 4096 => x (ix2 p k)) (fun k : Fin 4096 => v (ix2 (0 : Fin 1) k))
          (fun (s : Fin 1024) (k : Fin 4096) => W (ix2 s k)) (fun s : Fin 1024 => c (ix2 (0 : Fin 1) s))
          (fun (o : Fin 4096) (s : Fin 1024) => U (ix2 o s)) (fun o : Fin 4096 => u (ix2 (0 : Fin 1) o)) o := by
  unfold k0_pay2 branch
  refine (mulf_apply _ _ _).trans ?_
  refine congrArg₂ (· * ·) ?_ (broadcastTo_1b_ab_apply u _ p o)
  refine (second_product _ _ p o).trans (Finset.sum_congr rfl fun s _ => ?_)
  refine congrArg₂ (· * ·) (hidden x v W c _ _ _ _ _ _ p s) ?_
  rw [shapeCast_self]

/-- The first payload: the first branch's value plus the second branch finished from its hidden activations, plus the
    bias row, at `(p, o)`. -/
theorem pay1_at (y : FVec Ideal S128x4096 .f32) (hid : FVec Ideal S128x1024 .bf16) (U : FVec Ideal S4096x1024 .bf16)
    (u : FVec Ideal S1x4096 .f32) (b : FVec Ideal S1x4096 .f32) (p : Fin 128) (o : Fin 4096) :
    k0_pay1 (F := Ideal) y hid U u b (ix2 p o)
      = (y (ix2 p o) + (∑ s : Fin 1024, hid (ix2 p s) * U (ix2 o s)) * u (ix2 (0 : Fin 1) o)) + b (ix2 (0 : Fin 1) o) := by
  unfold k0_pay1
  refine (addf_apply _ _ _).trans ?_
  refine congrArg₂ (· + ·) ?_ ?_
  · refine (addf_apply _ _ _).trans (congrArg (y (ix2 p o) + ·) ?_)
    refine (mulf_apply _ _ _).trans ?_
    refine congrArg₂ (· * ·) ?_ (broadcastTo_1b_ab_apply u _ p o)
    refine (second_product _ _ p o).trans (Finset.sum_congr rfl fun s _ => ?_)
    rw [shapeCast_self]
  · refine (broadcastTo_1b_ab_apply _ _ p o).trans ?_
    rw [shapeCast_self]

/-- THE STORED VALUE at `(p, o)`: `rowOut` of row `p` of the input block, the weights, scales and bias row as loaded. -/
theorem stored_at (x : FVec Ideal S128x4096 .f32)
    (W : FVec Ideal S1024x4096 .bf16) (U : FVec Ideal S4096x1024 .bf16) (v : FVec Ideal S1x4096 .f32) (c : FVec Ideal S1x1024 .f32) (u : FVec Ideal S1x4096 .f32)
    (W' : FVec Ideal S1024x4096 .bf16) (U' : FVec Ideal S4096x1024 .bf16) (v' : FVec Ideal S1x4096 .f32) (c' : FVec Ideal S1x1024 .f32) (u' : FVec Ideal S1x4096 .f32)
    (b : FVec Ideal S1x4096 .f32) (p : Fin 128) (o : Fin 4096) :
    k0_pay1 (F := Ideal) (k0_pay2 (F := Ideal) x v W c U u) (k0_pay3 (F := Ideal) x v' W' c') U' u' b (ix2 p o)
      = rowOut (fun k : Fin 4096 => x (ix2 p k))
          (fun k : Fin 4096 => v (ix2 (0 : Fin 1) k)) (fun (s : Fin 1024) (k : Fin 4096) => W (ix2 s k)) (fun s : Fin 1024 => c (ix2 (0 : Fin 1) s))
          (fun (o : Fin 4096) (s : Fin 1024) => U (ix2 o s)) (fun o : Fin 4096 => u (ix2 (0 : Fin 1) o))
          (fun k : Fin 4096 => v' (ix2 (0 : Fin 1) k)) (fun (s : Fin 1024) (k : Fin 4096) => W' (ix2 s k)) (fun s : Fin 1024 => c' (ix2 (0 : Fin 1) s))
          (fun (o : Fin 4096) (s : Fin 1024) => U' (ix2 o s)) (fun o : Fin 4096 => u' (ix2 (0 : Fin 1) o))
          (fun o : Fin 4096 => b (ix2 (0 : Fin 1) o)) o := by
  rw [pay1_at, pay2_at]
  unfold rowOut
  refine congrArg (· + b (ix2 (0 : Fin 1) o)) (congrArg₂ (· + ·) rfl ?_)
  unfold branch
  refine congrArg (· * u' (ix2 (0 : Fin 1) o)) (Finset.sum_congr rfl fun s _ => ?_)
  rw [pay3_at]

end Cert.KernelIdeal.Payload

end
-- ==== Proof.KernelBlocks.lean ====
/-
  From the blocks to the whole array.

  The grid has 64 points; point `t` works on rows `128·t … 128·t + 127` of the flattened input and writes the
  same rows of the output, while every weight, scale and the bias row are resident: their one block is the
  whole array at every point. So what point `t` writes back is block `t` of ONE function of the arrays, the
  specification `G`: entry `(p, o)` of the block is `rowOut` of row `128·t + p`. The 64 blocks tile the 8192
  rows (row `r` lies in block `r / 128`), so after the last point the output array is `G` everywhere.
-/
import proofs.«117725_j15702400434326_2_alg».proof.Proof.Gen.KernelIdeal.Frame
import proofs.«117725_j15702400434326_2_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.LowRank Cert.KernelIdeal.Payload

variable (m : (ℓ : Loc nD τ sig) → Buf (Elt Ideal) ℓ)

/-- The loads and the store go through the whole block at zero offsets. -/
theorem zero_offsets : (![0, 0] : Fin 2 → Nat) = fun _ => 0 := funext fun a => by fin_cases a <;> rfl

/-- The printed index maps over the 64 points: the input rows' block moves with the output's along the rows and both sit
    at lane block 0; every other window stays at block (0, 0); the row block is one of 64. -/
theorem index_facts : ∀ t : Fin cfg0.N,
    win0_0.index t (0 : Fin 2) = win0_12.index t (0 : Fin 2) ∧ win0_0.index t (1 : Fin 2) = 0
    ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) ≤ 63 :=
  (by decide +kernel : ∀ t : Fin grid0.N, _)

/-- Every one of the 64 row blocks is some point's. -/
theorem index_onto : ∀ q : Fin 64, ∃ t : Fin cfg0.N, win0_12.index t = ![q.val, 0] :=
  (by decide +kernel : ∀ q : Fin 64, ∃ t : Fin grid0.N, win0_12.index t = ![q.val, 0])

/-! ## Each input block, read where it sits in its array -/

/-- Row `p` of the input block at point `t` is row `r` of the flattened input, `r` the block's first row plus `p`. -/
theorem input_rows (c : Dev nD) (t : Fin cfg0.N) (p : Fin 128) (r : Fin 8192)
    (hr : r.val = win0_12.index t (0 : Fin 2) * 128 + p.val) :
    (fun k : Fin 4096 => iblk m c 0 t (ix2 p k)) = fun k : Fin 4096 => (V m c main_v0 : S8192x4096.Idx → EReal) (ix2 r k) := by
  obtain ⟨r0, r1, z12, a1, b1, a2, b2, a3, b3, a4, b4, a5, b5, a6, b6, a7, b7, a8, b8, a9, b9, a10, b10, a11, b11, hi⟩ := index_facts t
  funext k
  show V m c main_v0 (((cfg0.win 0).blk t).view.emb (ix2 p k)) = V m c main_v0 (ix2 r k)
  have h : ((cfg0.win 0).blk t).view.emb (ix2 p k) = ix2 r k := by
    funext ax; apply Fin.ext
    match ax with
    | ⟨0, _⟩ => show win0_0.index t (0 : Fin 2) * 128 + 1 * p.val = r.val; omega
    | ⟨1, _⟩ => show win0_0.index t (1 : Fin 2) * 4096 + 1 * k.val = k.val; omega
  rw [h]

/-- Window 1 is resident: its one block is its whole array. -/
theorem resident1 (c : Dev nD) (t : Fin cfg0.N) : iblk m c 1 t = (V m c main_v2 : S1024x4096.Idx → EReal) := by
  obtain ⟨r0, r1, z12, a1, b1, a2, b2, a3, b3, a4, b4, a5, b5, a6, b6, a7, b7, a8, b8, a9, b9, a10, b10, a11, b11, hi⟩ := index_facts t
  funext y
  show V m c main_v2 (((cfg0.win 1).blk t).view.emb y) = V m c main_v2 y
  have h : ((cfg0.win 1).blk t).view.emb y = y := by
    funext ax; apply Fin.ext
    match ax with
    | ⟨0, _⟩ => show win0_1.index t (0 : Fin 2) * 1024 + 1 * (y 0).val = (y 0).val; omega
    | ⟨1, _⟩ => show win0_1.index t (1 : Fin 2) * 4096 + 1 * (y 1).val = (y 1).val; omega
  rw [h]

/-- Window 2 is resident: its one block is its whole array. -/
theorem resident2 (c : Dev nD) (t : Fin cfg0.N) : iblk m c 2 t = (V m c main_v4 : S4096x1024.Idx → EReal) := by
  obtain ⟨r0, r1, z12, a1, b1, a2, b2, a3, b3, a4, b4, a5, b5, a6, b6, a7, b7, a8, b8, a9, b9, a10, b10, a11, b11, hi⟩ := index_facts t
  funext y
  show V m c main_v4 (((cfg0.win 2).blk t).view.emb y) = V m c main_v4 y
  have h : ((cfg0.win 2).blk t).view.emb y = y := by
    funext ax; apply Fin.ext
    match ax with
    | ⟨0, _⟩ => show win0_2.index t (0 : Fin 2) * 4096 + 1 * (y 0).val = (y 0).val; omega
    | ⟨1, _⟩ => show win0_2.index t (1 : Fin 2) * 1024 + 1 * (y 1).val = (y 1).val; omega
  rw [h]

/-- Window 3 is resident: its one block is its whole array. -/
theorem resident3 (c : Dev nD) (t : Fin cfg0.N) : iblk m c 3 t = (V m c main_arg3 : S1x4096.Idx → EReal) := by
  obtain ⟨r0, r1, z12, a1, b1, a2, b2, a3, b3, a4, b4, a5, b5, a6, b6, a7, b7, a8, b8, a9, b9, a10, b10, a11, b11, hi⟩ := index_facts t
  funext y
  show V m c main_arg3 (((cfg0.win 3).blk t).view.emb y) = V m c main_arg3 y
  have h : ((cfg0.win 3).blk t).view.emb y = y := by
    funext ax; apply Fin.ext
    match ax with
    | ⟨0, _⟩ => show win0_3.index t (0 : Fin 2) * 1 + 1 * (y 0).val = (y 0).val; omega
    | ⟨1, _⟩ => show win0_3.index t (1 : Fin 2) * 4096 + 1 * (y 1).val = (y 1).val; omega
  rw [h]

/-- Window 4 is resident: its one block is its whole array. -/
theorem resident4 (c : Dev nD) (t : Fin cfg0.N) : iblk m c 4 t = (V m c main_v9 : S1x1024.Idx → EReal) := by
  obtain ⟨r0, r1, z12, a1, b1, a2, b2, a3, b3, a4, b4, a5, b5, a6, b6, a7, b7, a8, b8, a9, b9, a10, b10, a11, b11, hi⟩ := index_facts t
  funext y
  show V m c main_v9 (((cfg0.win 4).blk t).view.emb y) = V m c main_v9 y
  have h : ((cfg0.win 4).blk t).view.emb y = y := by
    funext ax; apply Fin.ext
    match ax with
    | ⟨0, _⟩ => show win0_4.index t (0 : Fin 2) * 1 + 1 * (y 0).val = (y 0).val; omega
    | ⟨1, _⟩ => show win0_4.index t (1 : Fin 2) * 1024 + 1 * (y 1).val = (y 1).val; omega
  rw [h]

/-- Window 5 is resident: its one block is its whole array. -/
theorem resident5 (c : Dev nD) (t : Fin cfg0.N) : iblk m c 5 t = (V m c main_arg6 : S1x4096.Idx → EReal) := by
  obtain ⟨r0, r1, z12, a1, b1, a2, b2, a3, b3, a4, b4, a5, b5, a6, b6, a7, b7, a8, b8, a9, b9, a10, b10, a11, b11, hi⟩ := index_facts t
  funext y
  show V m c main_arg6 (((cfg0.win 5).blk t).view.emb y) = V m c main_arg6 y
  have h : ((cfg0.win 5).blk t).view.emb y = y := by
    funext ax; apply Fin.ext
    match ax with
    | ⟨0, _⟩ => show win0_5.index t (0 : Fin 2) * 1 + 1 * (y 0).val = (y 0).val; omega
    | ⟨1, _⟩ => show win0_5.index t (1 : Fin 2) * 4096 + 1 * (y 1).val = (y 1).val; omega
  rw [h]

/-- Window 6 is resident: its one block is its whole array. -/
theorem resident6 (c : Dev nD) (t : Fin cfg0.N) : iblk m c 6 t = (V m c main_v6 : S1024x4096.Idx → EReal) := by
  obtain ⟨r0, r1, z12, a1, b1, a2, b2, a3, b3, a4, b4, a5, b5, a6, b6, a7, b7, a8, b8, a9, b9, a10, b10, a11, b11, hi⟩ := index_facts t
  funext y
  show V m c main_v6 (((cfg0.win 6).blk t).view.emb y) = V m c main_v6 y
  have h : ((cfg0.win 6).blk t).view.emb y = y := by
    funext ax; apply Fin.ext
    match ax with
    | ⟨0, _⟩ => show win0_6.index t (0 : Fin 2) * 1024 + 1 * (y 0).val = (y 0).val; omega
    | ⟨1, _⟩ => show win0_6.index t (1 : Fin 2) * 4096 + 1 * (y 1).val = (y 1).val; omega
  rw [h]

/-- Window 7 is resident: its one block is its whole array. -/
theorem resident7 (c : Dev nD) (t : Fin cfg0.N) : iblk m c 7 t = (V m c main_v8 : S4096x1024.Idx → EReal) := by
  obtain ⟨r0, r1, z12, a1, b1, a2, b2, a3, b3, a4, b4, a5, b5, a6, b6, a7, b7, a8, b8, a9, b9, a10, b10, a11, b11, hi⟩ := index_facts t
  funext y
  show V m c main_v8 (((cfg0.win 7).blk t).view.emb y) = V m c main_v8 y
  have h : ((cfg0.win 7).blk t).view.emb y = y := by
    funext ax; apply Fin.ext
    match ax with
    | ⟨0, _⟩ => show win0_7.index t (0 : Fin 2) * 4096 + 1 * (y 0).val = (y 0).val; omega
    | ⟨1, _⟩ => show win0_7.index t (1 : Fin 2) * 1024 + 1 * (y 1).val = (y 1).val; omega
  rw [h]

/-- Window 8 is resident: its one block is its whole array. -/
theorem resident8 (c : Dev nD) (t : Fin cfg0.N) : iblk m c 8 t = (V m c main_arg9 : S1x4096.Idx → EReal) := by
  obtain ⟨r0, r1, z12, a1, b1, a2, b2, a3, b3, a4, b4, a5, b5, a6, b6, a7, b7, a8, b8, a9, b9, a10, b10, a11, b11, hi⟩ := index_facts t
  funext y
  show V m c main_arg9 (((cfg0.win 8).blk t).view.emb y) = V m c main_arg9 y
  have h : ((cfg0.win 8).blk t).view.emb y = y := by
    funext ax; apply Fin.ext
    match ax with
    | ⟨0, _⟩ => show win0_8.index t (0 : Fin 2) * 1 + 1 * (y 0).val = (y 0).val; omega
    | ⟨1, _⟩ => show win0_8.index t (1 : Fin 2) * 4096 + 1 * (y 1).val = (y 1).val; omega
  rw [h]

/-- Window 9 is resident: its one block is its whole array. -/
theorem resident9 (c : Dev nD) (t : Fin cfg0.N) : iblk m c 9 t = (V m c main_v10 : S1x1024.Idx → EReal) := by
  obtain ⟨r0, r1, z12, a1, b1, a2, b2, a3, b3, a4, b4, a5, b5, a6, b6, a7, b7, a8, b8, a9, b9, a10, b10, a11, b11, hi⟩ := index_facts t
  funext y
  show V m c main_v10 (((cfg0.win 9).blk t).view.emb y) = V m c main_v10 y
  have h : ((cfg0.win 9).blk t).view.emb y = y := by
    funext ax; apply Fin.ext
    match ax with
    | ⟨0, _⟩ => show win0_9.index t (0 : Fin 2) * 1 + 1 * (y 0).val = (y 0).val; omega
    | ⟨1, _⟩ => show win0_9.index t (1 : Fin 2) * 1024 + 1 * (y 1).val = (y 1).val; omega
  rw [h]

/-- Window 10 is resident: its one block is its whole array. -/
theorem resident10 (c : Dev nD) (t : Fin cfg0.N) : iblk m c 10 t = (V m c main_arg12 : S1x4096.Idx → EReal) := by
  obtain ⟨r0, r1, z12, a1, b1, a2, b2, a3, b3, a4, b4, a5, b5, a6, b6, a7, b7, a8, b8, a9, b9, a10, b10, a11, b11, hi⟩ := index_facts t
  funext y
  show V m c main_arg12 (((cfg0.win 10).blk t).view.emb y) = V m c main_arg12 y
  have h : ((cfg0.win 10).blk t).view.emb y = y := by
    funext ax; apply Fin.ext
    match ax with
    | ⟨0, _⟩ => show win0_10.index t (0 : Fin 2) * 1 + 1 * (y 0).val = (y 0).val; omega
    | ⟨1, _⟩ => show win0_10.index t (1 : Fin 2) * 4096 + 1 * (y 1).val = (y 1).val; omega
  rw [h]

/-- Window 11 is resident: its one block is its whole array. -/
theorem resident11 (c : Dev nD) (t : Fin cfg0.N) : iblk m c 11 t = (V m c main_v11 : S1x4096.Idx → EReal) := by
  obtain ⟨r0, r1, z12, a1, b1, a2, b2, a3, b3, a4, b4, a5, b5, a6, b6, a7, b7, a8, b8, a9, b9, a10, b10, a11, b11, hi⟩ := index_facts t
  funext y
  show V m c main_v11 (((cfg0.win 11).blk t).view.emb y) = V m c main_v11 y
  have h : ((cfg0.win 11).blk t).view.emb y = y := by
    funext ax; apply Fin.ext
    match ax with
    | ⟨0, _⟩ => show win0_11.index t (0 : Fin 2) * 1 + 1 * (y 0).val = (y 0).val; omega
    | ⟨1, _⟩ => show win0_11.index t (1 : Fin 2) * 4096 + 1 * (y 1).val = (y 1).val; omega
  rw [h]

/-- Entry `(p, o)` of the output block at point `t` sits at row `r`, lane `o` of the output array. -/
theorem output_entry (t : Fin cfg0.N) (p : Fin 128) (o : Fin 4096) (r : Fin 8192)
    (hr : r.val = win0_12.index t (0 : Fin 2) * 128 + p.val) :
    ((cfg0.win 12).blk t).view.emb (ix2 p o) = (ix2 r o : S8192x4096.Idx) := by
  obtain ⟨r0, r1, z12, a1, b1, a2, b2, a3, b3, a4, b4, a5, b5, a6, b6, a7, b7, a8, b8, a9, b9, a10, b10, a11, b11, hi⟩ := index_facts t
  funext ax; apply Fin.ext
  match ax with
  | ⟨0, _⟩ => show win0_12.index t (0 : Fin 2) * 128 + 1 * p.val = r.val; omega
  | ⟨1, _⟩ => show win0_12.index t (1 : Fin 2) * 4096 + 1 * o.val = o.val; omega

/-! ## What a point writes back -/

/-- WHAT POINT `t` WRITES BACK is block `t` of `G` of the arrays as the region finds them (the bias row given as the
    vector `b` it lays out). -/
theorem flushed_eq (c : Dev nD) (t : Fin cfg0.N) (b : (Vec1 4096).Idx → EReal)
    (hb : ∀ o : Fin 4096, (V m c main_v11 : S1x4096.Idx → EReal) (ix2 (0 : Fin 1) o) = b (ix1 o)) :
    (dats m 0 c).flushed 12 t
      = ((cfg0.win 12).blk t).view.read (Elt Ideal) (G (V m c main_v0) (V m c main_v2) (V m c main_v4) (V m c main_arg3) (V m c main_v9) (V m c main_arg6) (V m c main_v6) (V m c main_v8) (V m c main_arg9) (V m c main_v10) (V m c main_arg12) b) := by
  show (cfg0.win 12).cut (grid0.coords t) ((dats m 0 c).after 12 t) = _
  rw [after0_12]
  unfold out0_12
  rw [View.canon_unit_zero zero_offsets]
  simp only [View.ld_unit_zero (S := S128x4096) zero_offsets, View.ld_unit_zero (S := S1024x4096) zero_offsets,
    View.ld_unit_zero (S := S4096x1024) zero_offsets, View.ld_unit_zero (S := S1x4096) zero_offsets,
    View.ld_unit_zero (S := S1x1024) zero_offsets]
  obtain ⟨r0, r1, z12, a1, b1, a2, b2, a3, b3, a4, b4, a5, b5, a6, b6, a7, b7, a8, b8, a9, b9, a10, b10, a11, b11, hi⟩ := index_facts t
  funext j
  obtain ⟨p, o, rfl⟩ : ∃ (p : Fin 128) (o : Fin 4096), j = ix2 p o := ⟨j 0, j 1, eq_ix2 j⟩
  have hr : win0_12.index t (0 : Fin 2) * 128 + p.val < 8192 := by have := p.isLt; omega
  show k0_pay1 (F := Ideal) _ _ _ _ _ (ix2 p o) = G (V m c main_v0) (V m c main_v2) (V m c main_v4) (V m c main_arg3) (V m c main_v9) (V m c main_arg6) (V m c main_v6) (V m c main_v8) (V m c main_arg9) (V m c main_v10) (V m c main_arg12) b (((cfg0.win 12).blk t).view.emb (ix2 p o))
  rw [output_entry t p o ⟨win0_12.index t (0 : Fin 2) * 128 + p.val, hr⟩ rfl, G_ix2]
  refine (stored_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p o).trans ?_
  rw [input_rows m c t p ⟨win0_12.index t (0 : Fin 2) * 128 + p.val, hr⟩ rfl,
    resident1 m c t, resident2 m c t, resident3 m c t, resident4 m c t, resident5 m c t, resident6 m c t,
    resident7 m c t, resident8 m c t, resident9 m c t, resident10 m c t, resident11 m c t]
  exact congrArg (fun f : Fin 4096 → EReal => rowOut _ _ _ _ _ _ _ _ _ _ _ f o) (funext hb)

/-! ## The cover -/

/-- An index of the output array is in point `t`'s block iff each coordinate is in the block's range on its axis. -/
theorem mem_blk (t : Fin cfg0.N) (i : S8192x4096.Idx) :
    i ∈ ((cfg0.win 12).blk t).view.set ↔ ∀ a : Fin 2, win0_12.index t a * S128x4096.size a ≤ (i a).val ∧ (i a).val < win0_12.index t a * S128x4096.size a + S128x4096.size a := by
  show i ∈ ((View.whole main_v12).slice (win0_12.rect t)).set ↔ _
  rw [View.set_slice_whole, Rect.mem_set_unit]
  exact Iff.rfl

/-- Every index of the output array is in the block of the point that works on its rows: row `r` in block `r / 128`. -/
theorem cover (i : S8192x4096.Idx) :
    ∃ t : Fin cfg0.N, (cfg0.win 12).flush t = true ∧ i ∈ ((cfg0.win 12).blk t).view.set := by
  have hi0 : (i 0).val < 8192 := (i 0).isLt
  have hi1 : (i 1).val < 4096 := (i 1).isLt
  obtain ⟨t, ht⟩ := index_onto ⟨(i 0).val / 128, by omega⟩
  have q0 : win0_12.index t (0 : Fin 2) = (i 0).val / 128 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 4096 ≤ (i 1).val ∧ (i 1).val < win0_12.index t (1 : Fin 2) * 4096 + 4096; omega

/-- THE OUTPUT ARRAY after the last point is `G` of the arrays as the region finds them. -/
theorem output_array (c : Dev nD) (b : (Vec1 4096).Idx → EReal)
    (hb : ∀ o : Fin 4096, (V m c main_v11 : S1x4096.Idx → EReal) (ix2 (0 : Fin 1) o) = b (ix1 o)) :
    (dats m 0 c).arrAt 12 cfg0.N = G (V m c main_v0) (V m c main_v2) (V m c main_v4) (V m c main_arg3) (V m c main_v9) (V m c main_arg6) (V m c main_v6) (V m c main_v8) (V m c main_arg9) (V m c main_v10) (V m c main_arg12) b :=
  (dats m 0 c).arrAt_eq_of_cover 12 _ (fun t _ => flushed_eq m c t b hb) cover

end Cert.KernelIdeal.Blocks

end
-- ==== Proof.KernelHost.lean ====
/-
  What the region finds in its windows' arrays.

  Before the region the program flattens the input to 8192 rows, takes the sign of each of the four weight
  matrices and casts it to the narrow format, folds each pair of one-row scale vectors into their product,
  and lays the bias vector out as one row. Each of these is one or two host operations on the launch
  contents; here each window's array is read back as that term of the launch contents. The arrays no host
  operation writes are the launch contents themselves.
-/
import proofs.«117725_j15702400434326_2_alg».proof.Proof.Gen.KernelIdeal.Frame
import Idealize.ShloMosaic.Lib.StableHlo.Run
import Idealize.ShloMosaic.Lib.ValueLayout

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The flattened input. -/
theorem V_flat (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results <;> rfl

/-- The first branch's first sign matrix, cast. -/
theorem V_W (c : Dev nD) :
    (V m c main_v2 : S1024x4096.Idx → EReal)
      = truncf .bf16 (Host.sign (m ((c : Thread nD τ).loc main_arg1)) : FVec Ideal S1024x4096 .f32) bitsLt_bf16_f32 := by
  show StableHlo.after hostOps0 (fun b => m (c, b)) (Proc.devRef .tc main_v2) = _
  after_results <;> rfl

/-- The first branch's second sign matrix, cast. -/
theorem V_U (c : Dev nD) :
    (V m c main_v4 : S4096x1024.Idx → EReal)
      = truncf .bf16 (Host.sign (m ((c : Thread nD τ).loc main_arg2)) : FVec Ideal S4096x1024 .f32) bitsLt_bf16_f32 := by
  show StableHlo.after hostOps0 (fun b => m (c, b)) (Proc.devRef .tc main_v4) = _
  after_results <;> rfl

/-- The second branch's first sign matrix, cast. -/
theorem V_W' (c : Dev nD) :
    (V m c main_v6 : S1024x4096.Idx → EReal)
      = truncf .bf16 (Host.sign (m ((c : Thread nD τ).loc main_arg7)) : FVec Ideal S1024x4096 .f32) bitsLt_bf16_f32 := by
  show StableHlo.after hostOps0 (fun b => m (c, b)) (Proc.devRef .tc main_v6) = _
  after_results <;> rfl

/-- The second branch's second sign matrix, cast. -/
theorem V_U' (c : Dev nD) :
    (V m c main_v8 : S4096x1024.Idx → EReal)
      = truncf .bf16 (Host.sign (m ((c : Thread nD τ).loc main_arg8)) : FVec Ideal S4096x1024 .f32) bitsLt_bf16_f32 := by
  show StableHlo.after hostOps0 (fun b => m (c, b)) (Proc.devRef .tc main_v8) = _
  after_results <;> rfl

/-- The first branch's folded scale: the product of its two one-row vectors. -/
theorem V_c (c : Dev nD) :
    (V m c main_v9 : S1x1024.Idx → EReal)
      = mulf (F := Ideal) (s := S1x1024) (φ := .f32) (m ((c : Thread nD τ).loc main_arg4)) (m ((c : Thread nD τ).loc main_arg5)) := by
  show StableHlo.after hostOps0 (fun b => m (c, b)) (Proc.devRef .tc main_v9) = _
  after_results <;> rfl

/-- The second branch's folded scale. -/
theorem V_c' (c : Dev nD) :
    (V m c main_v10 : S1x1024.Idx → EReal)
      = mulf (F := Ideal) (s := S1x1024) (φ := .f32) (m ((c : Thread nD τ).loc main_arg10)) (m ((c : Thread nD τ).loc main_arg11)) := by
  show StableHlo.after hostOps0 (fun b => m (c, b)) (Proc.devRef .tc main_v10) = _
  after_results <;> rfl

/-- The bias laid out as one row. -/
theorem V_bias (c : Dev nD) :
    (V m c main_v11 : S1x4096.Idx → EReal)
      = shapeCast S1x4096 (m ((c : Thread nD τ).loc main_arg13)) shapeCasts_S4096_S1x4096 := by
  show StableHlo.after hostOps0 (fun b => m (c, b)) (Proc.devRef .tc main_v11) = _
  after_results <;> rfl

/-- The bias row read at a lane is the bias vector there. -/
theorem V_bias_at (c : Dev nD) (o : Fin 4096) :
    (V m c main_v11 : S1x4096.Idx → EReal) (ix2 (0 : Fin 1) o) = m ((c : Thread nD τ).loc main_arg13) (ix1 o) := by
  rw [V_bias]
  exact shapeCast_a_1a_apply _ _ (0 : Fin 1) o

end Cert.KernelIdeal.HostValue

end
-- ==== Proof.KernelValue.lean ====
/-
  The kernel's run, read through to the result.

  After the region the program only lays the 8192 output rows out in the input's shape. The region leaves
  its output array at `G` of the arrays it found (the blocks tile it), those arrays are the host lines'
  terms of the launch contents, and a cast of the signs to the narrow format is the identity at the ideal
  values: so the result is `LowRank.layer` of the fourteen argument arrays, which end unchanged.
-/
import proofs.«117725_j15702400434326_2_alg».proof.Proof.KernelBlocks
import proofs.«117725_j15702400434326_2_alg».proof.Proof.KernelHost
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.LowRank
open Cert.KernelIdeal.Blocks Cert.KernelIdeal.HostValue

variable (m : (ℓ : Loc nD τ sig) → Buf (Elt Ideal) ℓ) (ρ : Dev nD → PrngReg)

/-- The output array after the region, as a function of the launch contents. -/
theorem array_eq (c : Dev nD) :
    (dats m 0 c).arrAt 12 cfg0.N
      = G (shapeCast S8192x4096 (m ((c : Thread nD τ).loc main_arg0)) shapeCasts_S4x2048x4096_S8192x4096)
          (Host.sign (F := Ideal) (φ := .f32) (m ((c : Thread nD τ).loc main_arg1))) (Host.sign (F := Ideal) (φ := .f32) (m ((c : Thread nD τ).loc main_arg2))) (m ((c : Thread nD τ).loc main_arg3))
          (mulf (F := Ideal) (φ := .f32) (m ((c : Thread nD τ).loc main_arg4)) (m ((c : Thread nD τ).loc main_arg5))) (m ((c : Thread nD τ).loc main_arg6))
          (Host.sign (F := Ideal) (φ := .f32) (m ((c : Thread nD τ).loc main_arg7))) (Host.sign (F := Ideal) (φ := .f32) (m ((c : Thread nD τ).loc main_arg8))) (m ((c : Thread nD τ).loc main_arg9))
          (mulf (F := Ideal) (φ := .f32) (m ((c : Thread nD τ).loc main_arg10)) (m ((c : Thread nD τ).loc main_arg11))) (m ((c : Thread nD τ).loc main_arg12)) (m ((c : Thread nD τ).loc main_arg13)) := by
  rw [output_array m c (m ((c : Thread nD τ).loc main_arg13)) (V_bias_at m c), V_flat, V_W, V_U, V_main_arg3, V_c, V_main_arg6, V_W', V_U', V_main_arg9, V_c',
    V_main_arg12]
  rfl

/-- The result buffer after the line that follows the region: the output array laid out in the input's shape. -/
theorem tail_eq (c : Dev nD) (Y : S8192x4096.Idx → EReal) (hY : (dats m 0 c).arrAt 12 cfg0.N = Y) :
    Pipeline.afterTail₀ cfgs (dats m) 0 (V0 m) [hostOps1] c main_v13
      = shapeCast S4x2048x4096 Y shapeCasts_S8192x4096_S4x2048x4096 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12) = Y :=
    (Pipeline.withArrays_arr spec0 launch0.win.arr_inj c _ _ 12).trans hY
  rw [hw]
  rfl

/-- THE KERNEL'S RUN: every weakly fair execution terminates with the result at the layer of the argument arrays and the
    arguments unchanged. -/
theorem run : θ_run defs (onTc (τ := τ) (main (F := Ideal))) ⟨m, fun _ => 0, ρ⟩ fun r => ∀ c : Dev nD,
      r.2.mem ((c.tc : Thread nD τ).loc main_v13) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).2 main_v13 (Pipeline.mem_restRefs_of main_v13 (by decide) (by decide))).trans
        (tail_eq m c _ (array_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 10).trans (((dats m 0 c).arrAt_in 10 rfl _).trans ((A_eq m c 10).trans (V_main_arg12 m c))),
      ((h c).2 main_arg13 (Pipeline.mem_restRefs_of main_arg13 (by decide) (by decide))).trans (W_main_arg13 m (dats m) c)⟩)
    (run_main m ρ)

end Cert.KernelIdeal.KernelValue

end
-- ==== Proof.lean ====
/-
  A "little-bit" linear layer: two low-rank branches with sign-quantised factors, plus a bias.

  For an input `x` of shape [4, 2048, 4096], weight matrices `V, V'` : [1024, 4096] and `U, U'` : [4096, 1024],
  one-row scale vectors and a bias vector, both programs compute, on the input flattened to 8192 rows,

      y[r, o] = ( ( Σ_s ( ( Σ_k (x[r,k] · v2[k]) · sign(V)[s,k] ) · (v1[s] · u2[s]) ) · sign(U)[o,s] ) · u1[o]
                + the same with the primed arrays ) + bias[o]

  and lay `y` out in the input's shape. The kernel works on 128 rows per grid point with every weight
  resident, casts to a narrow float format before each product, contracts both operands of a product along
  their lanes and folds `v1 · u2` into one vector beforehand; the reference transposes the sign matrices and
  uses plain matrix products. At the ideal values — a float an extended real, every operation exact, a
  change of format the identity, a product into a zero accumulator the plain sum — these are one function of
  the arguments, grouped identically, so nothing is distributed or cancelled and finiteness of the inputs is
  never used.

  The modules: `Spec` states that function (`LowRank.layer`); `RefIsSpec` reads the reference's operations
  at an entry; `KernelPayload` reads what the kernel's body stores at an entry of its block; `KernelHost`
  reads what the lines before the region leave in the windows' arrays; `KernelBlocks` goes from the 64
  blocks to the whole output array; `KernelValue` is the kernel's run through the final layout. Here the
  five claims are assembled. The ideal pass rewrote nothing, so the idealization claim is trivial.
-/
import proofs.«117725_j15702400434326_2_alg».proof.Defs
import proofs.«117725_j15702400434326_2_alg».proof.Proof.Gen.Kernel
import proofs.«117725_j15702400434326_2_alg».proof.Proof.Gen.Kernel.Skeleton
import proofs.«117725_j15702400434326_2_alg».proof.Proof.Gen.Kernel.Launch
import proofs.«117725_j15702400434326_2_alg».proof.Proof.Gen.Kernel.Points
import proofs.«117725_j15702400434326_2_alg».proof.Proof.Gen.Kernel.Frame
import proofs.«117725_j15702400434326_2_alg».proof.Proof.Gen.KernelIdeal
import proofs.«117725_j15702400434326_2_alg».proof.Proof.Gen.KernelIdeal.Skeleton
import proofs.«117725_j15702400434326_2_alg».proof.Proof.Gen.KernelIdeal.Launch
import proofs.«117725_j15702400434326_2_alg».proof.Proof.Gen.KernelIdeal.Points
import proofs.«117725_j15702400434326_2_alg».proof.Proof.Gen.KernelIdeal.Frame
import proofs.«117725_j15702400434326_2_alg».proof.Proof.Gen.ReferenceIdeal
import proofs.«117725_j15702400434326_2_alg».proof.Proof.Gen.Pre_finite_inputs
import proofs.«117725_j15702400434326_2_alg».proof.Proof.Gen.ReferenceIdeal.Run
import proofs.«117725_j15702400434326_2_alg».proof.Proof.Gen.ReferenceIdeal.Read
import proofs.«117725_j15702400434326_2_alg».proof.Proof.RefIsSpec
import proofs.«117725_j15702400434326_2_alg».proof.Proof.KernelValue
import Idealize.ShloMosaic.Adequacy
import Idealize.ShloMosaic.Init

noncomputable section

namespace Cert.Proof

open Idealize.ShloMosaic Idealize.ShloMosaic.TcCoe Idealize.SL.Sem

/-- The printed kernel runs, nothing faults, and its arguments end unchanged. -/
theorem frame_kernel : Cert.frame_Kernel := fun m ρ _ => Cert.Kernel.Gen.frame m ρ

/-- The same of the kernel read at the ideal values. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal values both programs, run from memories that agree on the arguments, end with the layer of those
    arguments in their result: the kernel by its run read through its blocks, the reference by its run read one
    operation at a time. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c =>
      ⟨(h c).1.trans ((Cert.ReferenceIdeal.Read.val_main_v31_eq _ _ _ _ _ _ _ _ _ _ _ _ _ _).trans ?_), (h c).2⟩)
    (Cert.ReferenceIdeal.Value.run (F := Ideal) m' ρ')
  obtain ⟨h0, h1, h2, h3, h4, h5, h6, h7, h8, h9, h10, h11, h12, h13⟩ := hagree c
  rw [Cert.ReferenceIdeal.RefValue.ref_layer, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
